-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S64x64 .f32) (main_arg2 : FVec F S64x64 .f32) (main_arg3 : FVec F S64 .f32) (main_arg4 : FVec F S64 .f32) (main_arg5 : FVec F S64 .f32) (main_arg6 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x65 : Shape := ⟨2, ![800000, 65]⟩
abbrev S50000x65 : Shape := ⟨2, ![50000, 65]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 35
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S800000x1, .f32⟩
  | .hbm, ⟨22, _⟩ => ⟨S800000x65, .f32⟩
  | .hbm, ⟨23, _⟩ => ⟨S_, .f32⟩
  | .hbm, ⟨24, _⟩ => ⟨S50000x65, .f32⟩
  | .hbm, ⟨25, _⟩ => ⟨S800000x1, .i32⟩
  | .hbm, ⟨26, _⟩ => ⟨S50000x65, .f32⟩
  | .hbm, ⟨27, _⟩ => ⟨S50000x64, .f32⟩
  | .hbm, ⟨28, _⟩ => ⟨S50000x1, .f32⟩
  | .hbm, ⟨29, _⟩ => ⟨S64x64, .f32⟩
  | .hbm, ⟨30, _⟩ => ⟨S64x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  concatenates_S800000x64_S800000x1_S800000x65_d1 : Shape.Concatenates [S800000x64, S800000x1] S800000x65 1
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  transposes_S64x64_S64x64_1_0 : S64x64.Transposes [1, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  gather_S50000x64_S800000x1_S800000x64_1_0_n_n_0_1_164_wf : GatherDims.WF S50000x64 S800000x1 S800000x64 [1] [0] [] [0] [] 1 ![1, 64]
  scatter_S50000x65_S800000x1_S800000x65_1_0_0_1_wf : ScatterDims.WF S50000x65 S800000x1 S800000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S64x64, .f32⟩
  | .hbm, ⟨37, _⟩ => ⟨S50000x64, .f32⟩
  | .hbm, ⟨38, _⟩ => ⟨S64x64, .f32⟩
  | .hbm, ⟨39, _⟩ => ⟨S50000x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x1, .f32⟩
  | .hbm, ⟨65, _⟩ => ⟨S50000x64, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_cst : Ref sig .tc := ⟨.hbm, 73, rfl⟩
abbrev main_call0_v0 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.SageNorm.lean ====
/-
  The dense tail of a mean-aggregating graph layer with a layer normalisation, row by row, on the extended reals.

  Given, for each of R nodes, the sum A(r, ·) of its in-neighbours' 64 features and their number C(r), the node's own
  features X(r, ·), two 64×64 weight matrices (already transposed: Wl(k, c), Wr(k, c)), a bias row b and the
  normalisation's scale and shift rows g and s, entry (r, c) of the result is

      u(r, k)  = A(r, k) / max(C(r), 1)                                   the mean of the neighbours (isolated nodes: A / 1)
      h(r, c)  = (Σ_k u(r, k) · Wl(k, c)  +  Σ_k X(r, k) · Wr(k, c))  +  b(c)
      μ(r)     = (Σ_c h(r, c)) / 64
      d(r, c)  = h(r, c) − μ(r)
      σ²(r)    = (Σ_c d(r, c) · d(r, c)) / 64
      out(r,c) = max( d(r, c) · rsqrt(σ²(r) + ε) · g(c) + s(c) , 0 ).

  The constants are the values of the f32 words the programs carry (1, 64, ε, 0); the quotient is the extended reals'
  `Ideal.div`. Every entry of row r depends on row r of A, C and X only (`out_congr`): a block of consecutive rows of the
  result is the same function of the matching blocks of rows, which is what lets a kernel compute it tile by tile.
-/
import Idealize.ShloMosaic.Lib.ValueIdx
import Idealize.ShloMosaic.PureOps.Ideal

noncomputable section

namespace SageNorm

open Idealize.ShloMosaic Idealize.ShloMosaic.ValueIdx

/-- An a-by-b matrix of extended reals. -/
abbrev Mat (a b : Nat) := (⟨2, ![a, b]⟩ : Shape).Idx → EReal

variable {R : Nat}

/-- The mean of a node's in-neighbours, feature k: the sum over the neighbours divided by their number, at least 1. -/
def nbrMean (A : Mat R 64) (C : Mat R 1) (r : Fin R) (k : Fin 64) : EReal :=
  Ideal.div (A (ix2 r k)) (max (C (ix2 r (0 : Fin 1))) (Ideal.ofBits .f32 0x3F800000#32))

/-- The layer before normalisation: neighbours' mean times Wl, plus own features times Wr, plus the bias. -/
def lin (A : Mat R 64) (C : Mat R 1) (X : Mat R 64) (Wl Wr : Mat 64 64) (b : Mat 1 64) (r : Fin R) (c : Fin 64) : EReal :=
  ((∑ k : Fin 64, nbrMean A C r k * Wl (ix2 k c)) + (∑ k : Fin 64, X (ix2 r k) * Wr (ix2 k c))) + b (ix2 (0 : Fin 1) c)

/-- The mean of a row of 64 values. -/
def rowMean (h : Fin 64 → EReal) : EReal := Ideal.div (∑ c : Fin 64, h c) (Ideal.ofBits .f32 0x42800000#32)

/-- A row's deviation from its mean. -/
def centered (h : Fin 64 → EReal) (c : Fin 64) : EReal := h c - rowMean h

/-- The mean of the squared deviations. -/
def rowVar (h : Fin 64 → EReal) : EReal :=
  Ideal.div (∑ c : Fin 64, centered h c * centered h c) (Ideal.ofBits .f32 0x42800000#32)

/-- The reciprocal of the row's standard deviation, the variance shifted by ε. -/
def invStd (h : Fin 64 → EReal) : EReal := Ideal.rsqrt (rowVar h + Ideal.ofBits .f32 0x3727C5AC#32)

/-- Normalise a row, scale by g, shift by s, rectify. -/
def normRelu (h : Fin 64 → EReal) (g s : EReal) (c : Fin 64) : EReal :=
  max (centered h c * invStd h * g + s) (Ideal.ofBits .f32 0x00000000#32)

/-- Entry (r, c) of the layer. -/
def out (A : Mat R 64) (C : Mat R 1) (X : Mat R 64) (Wl Wr : Mat 64 64) (b g s : Mat 1 64) (r : Fin R) (c : Fin 64) : EReal :=
  normRelu (fun c' => lin A C X Wl Wr b r c') (g (ix2 (0 : Fin 1) c)) (s (ix2 (0 : Fin 1) c)) c

variable {R' : Nat}

theorem nbrMean_congr (A : Mat R 64) (C : Mat R 1) (A' : Mat R' 64) (C' : Mat R' 1) (r : Fin R) (r' : Fin R')
    (hA : ∀ k : Fin 64, A (ix2 r k) = A' (ix2 r' k)) (hC : C (ix2 r (0 : Fin 1)) = C' (ix2 r' (0 : Fin 1))) (k : Fin 64) :
    nbrMean A C r k = nbrMean A' C' r' k := by
  unfold nbrMean
  rw [hA k, hC]

theorem lin_congr (A : Mat R 64) (C : Mat R 1) (X : Mat R 64) (Wl Wr : Mat 64 64) (b : Mat 1 64)
    (A' : Mat R' 64) (C' : Mat R' 1) (X' : Mat R' 64) (Wl' Wr' : Mat 64 64) (b' : Mat 1 64) (r : Fin R) (r' : Fin R')
    (hA : ∀ k : Fin 64, A (ix2 r k) = A' (ix2 r' k)) (hC : C (ix2 r (0 : Fin 1)) = C' (ix2 r' (0 : Fin 1)))
    (hX : ∀ k : Fin 64, X (ix2 r k) = X' (ix2 r' k))
    (hWl : ∀ k c : Fin 64, Wl (ix2 k c) = Wl' (ix2 k c)) (hWr : ∀ k c : Fin 64, Wr (ix2 k c) = Wr' (ix2 k c))
    (hb : ∀ c : Fin 64, b (ix2 (0 : Fin 1) c) = b' (ix2 (0 : Fin 1) c)) (c : Fin 64) :
    lin A C X Wl Wr b r c = lin A' C' X' Wl' Wr' b' r' c := by
  unfold lin
  have e1 : (∑ k : Fin 64, nbrMean A C r k * Wl (ix2 k c)) = ∑ k : Fin 64, nbrMean A' C' r' k * Wl' (ix2 k c) :=
    Finset.sum_congr rfl fun k _ => by rw [nbrMean_congr A C A' C' r r' hA hC k, hWl k c]
  have e2 : (∑ k : Fin 64, X (ix2 r k) * Wr (ix2 k c)) = ∑ k : Fin 64, X' (ix2 r' k) * Wr' (ix2 k c) :=
    Finset.sum_congr rfl fun k _ => by rw [hX k, hWr k c]
  rw [e1, e2, hb c]

/-- ROW BY ROW: entry (r, c) of the layer reads row r of the neighbour sums, the counts and the features, and nothing
    else of them; the weights and the rows of bias, scale and shift may be read through any copies that agree entry by
    entry. -/
theorem out_congr (A : Mat R 64) (C : Mat R 1) (X : Mat R 64) (Wl Wr : Mat 64 64) (b g s : Mat 1 64)
    (A' : Mat R' 64) (C' : Mat R' 1) (X' : Mat R' 64) (Wl' Wr' : Mat 64 64) (b' g' s' : Mat 1 64) (r : Fin R) (r' : Fin R')
    (hA : ∀ k : Fin 64, A (ix2 r k) = A' (ix2 r' k)) (hC : C (ix2 r (0 : Fin 1)) = C' (ix2 r' (0 : Fin 1)))
    (hX : ∀ k : Fin 64, X (ix2 r k) = X' (ix2 r' k))
    (hWl : ∀ k c : Fin 64, Wl (ix2 k c) = Wl' (ix2 k c)) (hWr : ∀ k c : Fin 64, Wr (ix2 k c) = Wr' (ix2 k c))
    (hb : ∀ c : Fin 64, b (ix2 (0 : Fin 1) c) = b' (ix2 (0 : Fin 1) c))
    (hg : ∀ c : Fin 64, g (ix2 (0 : Fin 1) c) = g' (ix2 (0 : Fin 1) c))
    (hs : ∀ c : Fin 64, s (ix2 (0 : Fin 1) c) = s' (ix2 (0 : Fin 1) c)) (c : Fin 64) :
    out A C X Wl Wr b g s r c = out A' C' X' Wl' Wr' b' g' s' r' c := by
  unfold out
  rw [show (fun c' => lin A C X Wl Wr b r c') = fun c' => lin A' C' X' Wl' Wr' b' r' c' from
    funext fun c' => lin_congr A C X Wl Wr b A' C' X' Wl' Wr' b' r r' hA hC hX hWl hWr hb c', hg c, hs c]

end SageNorm

end
-- ==== Proof.KernelBlock.lean ====
/-
  One tile of the kernel's body, index by index.

  At a grid point the body loads a tile of 5000 rows of the neighbour sums (5000×64), of the neighbour counts (a 5000×1
  column) and of the node features (5000×64), the two whole 64×64 weight matrices and the three 1×64 rows (bias, scale,
  shift), and stores one 5000×64 tile. Read at (p, q) that tile is the dense tail `SageNorm.out` of the loaded tiles:
  • the count column, at least 1, spread over the 64 lanes divides the neighbour sums: the neighbours' mean;
  • the two products on the matrix unit, into zeros, are plain sums over k (a change of float format is the identity on the
    extended reals), and the bias row is spread over the rows;
  • the two lane sums divided by 64 are the row's mean and the mean of its squared deviations, kept as columns and spread
    back over the lanes;
  • the rest is pointwise.
-/
import proofs.«164882_j67233418051656_2_alg».proof.Proof.Gen.KernelIdeal.Value
import proofs.«164882_j67233418051656_2_alg».proof.Proof.LibPlainProduct
import proofs.«164882_j67233418051656_2_alg».proof.Proof.LibColumns
import proofs.«164882_j67233418051656_2_alg».proof.Proof.SageNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Idealize.ShloMosaic.LibColumns

variable (v0 : FVec Ideal S5000x1 .f32) (v4 v9 : FVec Ideal S5000x64 .f32) (v11 v14 : FVec Ideal S64x64 .f32)
  (v20 : FVec Ideal S1x64 .f32)

/-- The neighbours' mean as the body computes it: the sums over the count column, at least 1, spread over the lanes. -/
def nbr : FVec Ideal S5000x64 .f32 :=
  divf (shapeCast S5000x64 v4 shapeCasts_S5000x64_S5000x64)
    (broadcastTo S5000x64 (maximumf (shapeCast S5000x1 v0 shapeCasts_S5000x1_S5000x1)
      (broadcast S5000x1 (Scalar.ofBits (F := Ideal) .f32 0x3F800000#32))) broadcasts_S5000x1_S5000x64)

theorem nbr_apply (p : Fin 5000) (k : Fin 64) : nbr v0 v4 (ix2 p k) = SageNorm.nbrMean v4 v0 p k := by
  unfold nbr SageNorm.nbrMean
  rw [divf_apply, shapeCast_self, broadcastTo_a1_ab_apply, maximumf_apply, shapeCast_self, broadcast_apply]
  rfl

/-- The layer before normalisation as the body computes it: two products into zeros, summed, plus the bias row. -/
def pre : FVec Ideal S5000x64 .f32 :=
  addf (addf
      (matmul dot_S5000x64_S64x64_S5000x64_1_0_0_1_n_n none (truncf .bf16 (nbr v0 v4) bitsLt_bf16_f32)
        (truncf .bf16 (shapeCast S64x64 v11 shapeCasts_S64x64_S64x64) bitsLt_bf16_f32) (constant (F := Ideal) S5000x64 .f32 0x00000000#32))
      (matmul dot_S5000x64_S64x64_S5000x64_1_0_0_1_n_n none (truncf .bf16 v9 bitsLt_bf16_f32)
        (truncf .bf16 (shapeCast S64x64 v14 shapeCasts_S64x64_S64x64) bitsLt_bf16_f32) (constant (F := Ideal) S5000x64 .f32 0x00000000#32)))
    (broadcastTo S5000x64 (shapeCast S1x64 v20 shapeCasts_S1x64_S1x64) broadcasts_S1x64_S5000x64)

/-- The body's product dimensions are the plain rows-by-columns ones. -/
theorem dot_eq : dot_S5000x64_S64x64_S5000x64_1_0_0_1_n_n
    = PlainProduct.plainDims 5000 64 64 dot_S5000x64_S64x64_S5000x64_1_0_0_1_n_n.wf := rfl

theorem pre_apply (p : Fin 5000) (q : Fin 64) : pre v0 v4 v9 v11 v14 v20 (ix2 p q) = SageNorm.lin v4 v0 v9 v11 v14 v20 p q := by
  unfold pre SageNorm.lin
  rw [addf_apply, addf_apply, dot_eq]
  have e1 := PlainProduct.matmul_zero_apply dot_S5000x64_S64x64_S5000x64_1_0_0_1_n_n.wf none
    (truncf .bf16 (nbr v0 v4) bitsLt_bf16_f32) (truncf .bf16 (shapeCast S64x64 v11 shapeCasts_S64x64_S64x64) bitsLt_bf16_f32) p q
  have e2 := PlainProduct.matmul_zero_apply dot_S5000x64_S64x64_S5000x64_1_0_0_1_n_n.wf none
    (truncf .bf16 v9 bitsLt_bf16_f32) (truncf .bf16 (shapeCast S64x64 v14 shapeCasts_S64x64_S64x64) bitsLt_bf16_f32) p q
  have e3 : broadcastTo S5000x64 (shapeCast S1x64 v20 shapeCasts_S1x64_S1x64) broadcasts_S1x64_S5000x64 (ix2 p q)
      = v20 (ix2 (0 : Fin 1) q) := by
    rw [broadcastTo_1b_ab_apply, shapeCast_self]
  have s1 : (∑ k : Fin 64, (truncf .bf16 (nbr v0 v4) bitsLt_bf16_f32 : FVec Ideal S5000x64 .bf16) (ix2 p k)
        * (truncf .bf16 (shapeCast S64x64 v11 shapeCasts_S64x64_S64x64) bitsLt_bf16_f32 : FVec Ideal S64x64 .bf16) (ix2 k q))
      = ∑ k : Fin 64, SageNorm.nbrMean v4 v0 p k * v11 (ix2 k q) :=
    Finset.sum_congr rfl fun k _ => by rw [truncf_apply, truncf_apply, shapeCast_self, nbr_apply]
  have s2 : (∑ k : Fin 64, (truncf .bf16 v9 bitsLt_bf16_f32 : FVec Ideal S5000x64 .bf16) (ix2 p k)
        * (truncf .bf16 (shapeCast S64x64 v14 shapeCasts_S64x64_S64x64) bitsLt_bf16_f32 : FVec Ideal S64x64 .bf16) (ix2 k q))
      = ∑ k : Fin 64, v9 (ix2 p k) * v14 (ix2 k q) :=
    Finset.sum_congr rfl fun k _ => by rw [truncf_apply, truncf_apply, shapeCast_self]
  rw [e1, e2, e3, s1, s2]

/-- A lane sum of a 5000×64 tile, read at row p. -/
theorem rowSum_apply (src : FVec Ideal S5000x64 .f32) (hφ : FKind.Formats .f32)
    (hacc : (0x00000000#32 : BitVec 32) = FKind.add.neutral .f32 hφ) (p : Fin 5000) :
    multiReduction .add [1] S5000 src 0x00000000#32 reduces_S5000x64_S5000 hφ hacc (ix1 p) = ∑ c : Fin 64, src (ix2 p c) := by
  refine (Ideal.multiReduction_add_single src 0x00000000#32 reduces_S5000x64_S5000 hφ hacc (ix1 p)).trans ?_
  refine Finset.sum_congr rfl fun c _ => congrArg src ?_
  funext a
  refine Fin.ext ?_
  match a with
  | ⟨0, _⟩ => rfl
  | ⟨1, _⟩ => rfl

/-- A lane sum over 64, kept as a column and spread back over the lanes, read at (p, q). -/
theorem rowMeanCol_apply (src : FVec Ideal S5000x64 .f32) (hφ : FKind.Formats .f32)
    (hacc : (0x00000000#32 : BitVec 32) = FKind.add.neutral .f32 hφ) (p : Fin 5000) (u : Fin 1) :
    divf (shapeCast S5000x1 (multiReduction .add [1] S5000 src 0x00000000#32 reduces_S5000x64_S5000 hφ hacc) shapeCasts_S5000_S5000x1)
        (broadcast S5000x1 (Scalar.ofBits (F := Ideal) .f32 0x42800000#32)) (ix2 p u)
      = Ideal.div (∑ c : Fin 64, src (ix2 p c)) (Ideal.ofBits .f32 0x42800000#32) := by
  rw [divf_apply, shapeCast_a_a1_apply, rowSum_apply, broadcast_apply]
  rfl

/-- The row mean kept as a column and spread back over the lanes, read at (p, q). -/
theorem meanLanes_apply (p : Fin 5000) (q : Fin 64) :
    broadcastTo S5000x64 (divf (shapeCast S5000x1 (multiReduction .add [1] S5000 (pre v0 v4 v9 v11 v14 v20) 0x00000000#32
        reduces_S5000x64_S5000 (.inl rfl) rfl) shapeCasts_S5000_S5000x1)
        (broadcast S5000x1 (Scalar.ofBits (F := Ideal) .f32 0x42800000#32))) broadcasts_S5000x1_S5000x64 (ix2 p q)
      = SageNorm.rowMean (fun c => SageNorm.lin v4 v0 v9 v11 v14 v20 p c) := by
  refine (broadcastTo_a1_ab_apply _ _ p q).trans ?_
  refine (rowMeanCol_apply (pre v0 v4 v9 v11 v14 v20) _ _ p (0 : Fin 1)).trans ?_
  unfold SageNorm.rowMean
  exact congrArg (fun s => Ideal.div s (Ideal.ofBits .f32 0x42800000#32))
    (Finset.sum_congr rfl fun c _ => pre_apply v0 v4 v9 v11 v14 v20 p c)

/-- The deviation from the row mean: the body's first payload, read at (p, q). -/
theorem pay2_apply (p : Fin 5000) (q : Fin 64) :
    k0_pay2 (F := Ideal) v0 v4 v9 v11 v14 v20 (ix2 p q) = SageNorm.centered (fun c => SageNorm.lin v4 v0 v9 v11 v14 v20 p c) q := by
  show pre v0 v4 v9 v11 v14 v20 (ix2 p q)
      - broadcastTo S5000x64 (divf (shapeCast S5000x1 (multiReduction .add [1] S5000 (pre v0 v4 v9 v11 v14 v20) 0x00000000#32
          reduces_S5000x64_S5000 (.inl rfl) rfl) shapeCasts_S5000_S5000x1)
          (broadcast S5000x1 (Scalar.ofBits (F := Ideal) .f32 0x42800000#32))) broadcasts_S5000x1_S5000x64 (ix2 p q) = _
  exact congrArg₂ (fun a b : EReal => a - b) (pre_apply v0 v4 v9 v11 v14 v20 p q) (meanLanes_apply v0 v4 v9 v11 v14 v20 p q)

/-- The lane sum of the squared deviations, read at row p. -/
theorem sqSum_apply (p : Fin 5000) :
    multiReduction .add [1] S5000 (mulf (k0_pay2 (F := Ideal) v0 v4 v9 v11 v14 v20) (k0_pay2 (F := Ideal) v0 v4 v9 v11 v14 v20)) 0x00000000#32
        reduces_S5000x64_S5000 (.inl rfl) rfl (ix1 p)
      = ∑ c : Fin 64, SageNorm.centered (fun c' => SageNorm.lin v4 v0 v9 v11 v14 v20 p c') c
          * SageNorm.centered (fun c' => SageNorm.lin v4 v0 v9 v11 v14 v20 p c') c := by
  refine (rowSum_apply _ _ _ p).trans ?_
  exact Finset.sum_congr rfl fun c _ => congrArg₂ (fun a b : EReal => a * b)
    (pay2_apply v0 v4 v9 v11 v14 v20 p c) (pay2_apply v0 v4 v9 v11 v14 v20 p c)

/-- THE STORED TILE READ AT (p, q) is the dense tail of the loaded tiles. -/
theorem tile_apply (P0 : Vec Ideal S5000x1 .f32) (P1 P2 : Vec Ideal S5000x64 .f32) (P3 P4 : Vec Ideal S64x64 .f32)
    (P5 P6 P7 : Vec Ideal S1x64 .f32) (p : Fin 5000) (q : Fin 64) :
    Cert.KernelIdeal.Value.E8 P0 P1 P2 P3 P4 P5 P6 P7 (ix2 p q) = SageNorm.out P1 P0 P2 P3 P4 P5 P6 P7 p q := by
  have i0 : Cert.KernelIdeal.Value.ix8_0 (ix2 p q) = ix2 p q := by
    funext a; refine Fin.ext ?_; match a with | ⟨0, _⟩ => rfl | ⟨1, _⟩ => rfl
  have i1 : Cert.KernelIdeal.Value.ix8_1 (ix2 p q) = ix1 p := by
    funext a; refine Fin.ext ?_; match a with | ⟨0, _⟩ => rfl
  have i2 : Cert.KernelIdeal.Value.ix8_2 (ix2 p q) = ix2 (0 : Fin 1) q := by
    funext a; refine Fin.ext ?_; match a with | ⟨0, _⟩ => rfl | ⟨1, _⟩ => rfl
  have i3 : Cert.KernelIdeal.Value.ix8_3 (ix2 p q) = ix2 (0 : Fin 1) q := by
    funext a; refine Fin.ext ?_; match a with | ⟨0, _⟩ => rfl | ⟨1, _⟩ => rfl
  show max (k0_pay2 (F := Ideal) P0 P1 P2 P3 P4 P5 (Cert.KernelIdeal.Value.ix8_0 (ix2 p q))
      * Ideal.rsqrt (Ideal.div (multiReduction .add [1] S5000 (mulf (k0_pay2 (F := Ideal) P0 P1 P2 P3 P4 P5) (k0_pay2 (F := Ideal) P0 P1 P2 P3 P4 P5)) 0x00000000#32
          reduces_S5000x64_S5000 (.inl rfl) rfl (Cert.KernelIdeal.Value.ix8_1 (ix2 p q))) (Ideal.ofBits .f32 0x42800000#32)
        + Ideal.ofBits .f32 0x3727C5AC#32)
      * P6 (Cert.KernelIdeal.Value.ix8_2 (ix2 p q)) + P7 (Cert.KernelIdeal.Value.ix8_3 (ix2 p q))) (Ideal.ofBits .f32 0x00000000#32) = _
  rw [i0, i1, i2, i3]
  have hc := pay2_apply P0 P1 P2 P3 P4 P5 p q
  have hs := sqSum_apply P0 P1 P2 P3 P4 P5 p
  unfold SageNorm.out SageNorm.normRelu SageNorm.invStd SageNorm.rowVar
  exact congrArg₂ (fun a b : EReal => max (a * Ideal.rsqrt (Ideal.div b (Ideal.ofBits .f32 0x42800000#32)
      + Ideal.ofBits .f32 0x3727C5AC#32) * P6 (ix2 (0 : Fin 1) q) + P7 (ix2 (0 : Fin 1) q)) (Ideal.ofBits .f32 0x00000000#32)) hc hs

end Cert.KernelIdeal.Block

end
-- ==== Proof.KernelArray.lean ====
/-
  From tiles to the whole array.

  The grid has ten points; point t works on rows 5000·t … 5000·t + 4999: the windows of the neighbour sums, the counts, the
  node features and the result all move with t along the rows, and the weights and the three rows are the same whole arrays
  at every point. The tile a point stores is the dense tail of the tiles it loads (`Block.tile_apply`), and an entry of the
  dense tail reads its own row only (`SageNorm.out_congr`); so the tile point t writes back is rows 5000·t … of ONE
  whole-array function: the dense tail of the arrays as the region finds them. The ten tiles cover the 50000 rows (row r is
  in the tile of point r / 5000), so after the run the result array is that function.
-/
import proofs.«164882_j67233418051656_2_alg».proof.Proof.Gen.KernelIdeal.Value
import proofs.«164882_j67233418051656_2_alg».proof.Proof.KernelBlock
import proofs.«164882_j67233418051656_2_alg».proof.Proof.SageNorm
import Idealize.ShloMosaic.Lib.ValueIdx
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The tile the body leaves, over arbitrary loaded tiles, read at an index. -/
theorem tile_out (x0 : Vec Ideal S5000x64 .f32) (x1 : Vec Ideal S5000x1 .f32) (x2 : Vec Ideal S5000x64 .f32)
    (x3 x4 : Vec Ideal S64x64 .f32) (x5 x6 x7 : Vec Ideal S1x64 .f32) (p : Fin 5000) (q : Fin 64) :
    out0_8 x0 x1 x2 x3 x4 x5 x6 x7 (ix2 p q) = SageNorm.out x0 x1 x2 x3 x4 x5 x6 x7 p q := by
  unfold out0_8
  refine (canon8_eq _ _ _ _ _ _ _ _ (ix2 p q)).trans ?_
  refine (Block.tile_apply _ _ _ _ _ _ _ _ p q).trans ?_
  simp only [View.ld_unit_zero (S := S5000x1) hz, View.ld_unit_zero (S := S5000x64) hz, View.ld_unit_zero (S := S64x64) hz,
    View.ld_unit_zero (S := S1x64) hz]

/-- The dense tail, row by row, of ANY contents `W` of the region's buffers: of the neighbour sums, the counts, the node
    features, the two weight matrices and the three rows found in the buffers the windows stage. -/
def Gof (c : Dev nD) (W : (b : Ref sig .tc) → Buf (Elt Ideal) ((c : Thread nD τ).loc b)) : S50000x64.Idx → EReal := fun i =>
  SageNorm.out (W main_v16 : S50000x64.Idx → EReal) (W main_v17 : S50000x1.Idx → EReal) (W main_arg0 : S50000x64.Idx → EReal) (W main_v18 : S64x64.Idx → EReal) (W main_v19 : S64x64.Idx → EReal) (W main_v20 : S1x64.Idx → EReal) (W main_v21 : S1x64.Idx → EReal) (W main_v22 : S1x64.Idx → EReal) (i 0) (i 1)

/-- Window w's block at point t, of any contents `W` of the region's buffers. -/
def blockOf (c : Dev nD) (W : (b : Ref sig .tc) → Buf (Elt Ideal) ((c : Thread nD τ).loc b)) (w : Fin cfg0.W) (t : Fin cfg0.N) :
    ((cfg0.win w).xblock (cfg0.grid.coords t)).Idx → Elt Ideal (cfg0.win w).elt :=
  ((cfg0.win w).blk t).view.read (Elt Ideal) (W (Pipeline.arrRef spec0 w))

/-- THE RESULT ARRAY as one function of the arrays the region finds: their dense tail. -/
def G (c : Dev nD) : S50000x64.Idx → EReal := Gof c (V m c)

/-- The printed index maps, decided over the ten points: the row windows move with the result's, the others stay. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0 ∧ win0_8.index t (0 : Fin 2) ≤ 9 :=
  (by decide +kernel : ∀ t : Fin grid0.N, _)

/-- Every block of rows is some point's. -/
theorem idx_onto : ∀ q0 : Fin 10, ∃ t : Fin cfg0.N, win0_8.index t = ![q0.val, 0] :=
  (by decide +kernel : ∀ q0 : Fin 10, ∃ t : Fin grid0.N, win0_8.index t = ![q0.val, 0])

/-- A tile the body leaves, read at (p, q), is the dense tail of whole arrays at (r, q) when the loaded tiles are row p's
    copies of row r of those arrays (and the weights and the three rows are read through copies). -/
theorem tile_rows (x0 : Vec Ideal S5000x64 .f32) (x1 : Vec Ideal S5000x1 .f32) (x2 : Vec Ideal S5000x64 .f32)
    (x3 x4 : Vec Ideal S64x64 .f32) (x5 x6 x7 : Vec Ideal S1x64 .f32)
    (A : SageNorm.Mat 50000 64) (C : SageNorm.Mat 50000 1) (X : SageNorm.Mat 50000 64) (Wl Wr : SageNorm.Mat 64 64)
    (b g s : SageNorm.Mat 1 64) (p : Fin 5000) (q : Fin 64) (r : Fin 50000)
    (hA : ∀ k : Fin 64, x0 (ix2 p k) = A (ix2 r k)) (hC : x1 (ix2 p (0 : Fin 1)) = C (ix2 r (0 : Fin 1)))
    (hX : ∀ k : Fin 64, x2 (ix2 p k) = X (ix2 r k))
    (hWl : ∀ k c : Fin 64, x3 (ix2 k c) = Wl (ix2 k c)) (hWr : ∀ k c : Fin 64, x4 (ix2 k c) = Wr (ix2 k c))
    (hb : ∀ c : Fin 64, x5 (ix2 (0 : Fin 1) c) = b (ix2 (0 : Fin 1) c))
    (hg : ∀ c : Fin 64, x6 (ix2 (0 : Fin 1) c) = g (ix2 (0 : Fin 1) c))
    (hs : ∀ c : Fin 64, x7 (ix2 (0 : Fin 1) c) = s (ix2 (0 : Fin 1) c)) :
    out0_8 x0 x1 x2 x3 x4 x5 x6 x7 (ix2 p q) = SageNorm.out A C X Wl Wr b g s r q :=
  (tile_out x0 x1 x2 x3 x4 x5 x6 x7 p q).trans
    (SageNorm.out_congr x0 x1 x2 x3 x4 x5 x6 x7 A C X Wl Wr b g s p r hA hC hX hWl hWr hb hg hs q)

/-- AT ONE GRID POINT, over ANY whole arrays: the tile the body leaves from the windows' blocks of those arrays, read at
    a block index, is the dense tail of the whole arrays at the array index under it. -/
theorem point_eq (A0 : S50000x64.Idx → EReal) (A1 : S50000x1.Idx → EReal) (A2 : S50000x64.Idx → EReal)
    (A3 A4 : S64x64.Idx → EReal) (A5 A6 A7 : S1x64.Idx → EReal) (t : Fin cfg0.N) (j : S5000x64.Idx) :
    out0_8 (F := Ideal) (fun y : S5000x64.Idx => A0 (((cfg0.win 0).blk t).view.emb y))
      (fun y : S5000x1.Idx => A1 (((cfg0.win 1).blk t).view.emb y))
      (fun y : S5000x64.Idx => A2 (((cfg0.win 2).blk t).view.emb y))
      (fun y : S64x64.Idx => A3 (((cfg0.win 3).blk t).view.emb y))
      (fun y : S64x64.Idx => A4 (((cfg0.win 4).blk t).view.emb y))
      (fun y : S1x64.Idx => A5 (((cfg0.win 5).blk t).view.emb y))
      (fun y : S1x64.Idx => A6 (((cfg0.win 6).blk t).view.emb y))
      (fun y : S1x64.Idx => A7 (((cfg0.win 7).blk t).view.emb y)) j
      = SageNorm.out A0 A1 A2 A3 A4 A5 A6 A7 ((((cfg0.win 8).blk t).view.emb j) 0) ((((cfg0.win 8).blk t).view.emb j) 1) := by
  obtain ⟨a0, a1, b0, b1, c0, c1, d0, d1, e0, e1, f0, f1, g0, g1, h0, h1, o1, o0⟩ := idx_facts t
  have hj0 : (j 0).val < 5000 := (j 0).isLt
  have hj1 : (j 1).val < 64 := (j 1).isLt
  have hjx : j = ix2 (⟨(j 0).val, hj0⟩ : Fin 5000) (⟨(j 1).val, hj1⟩ : Fin 64) := by
    funext a
    match a with
    | ⟨0, _⟩ => rfl
    | ⟨1, _⟩ => rfl
  have hr : win0_8.index t (0 : Fin 2) * 5000 + (j 0).val < 50000 := by omega
  have he : ((cfg0.win 8).blk t).view.emb j
      = ix2 (⟨win0_8.index t (0 : Fin 2) * 5000 + (j 0).val, hr⟩ : Fin 50000) (⟨(j 1).val, hj1⟩ : Fin 64) := by
    funext a; apply Fin.ext
    match a with
    | ⟨0, _⟩ => show win0_8.index t (0 : Fin 2) * 5000 + 1 * (j 0).val = win0_8.index t (0 : Fin 2) * 5000 + (j 0).val; omega
    | ⟨1, _⟩ => show win0_8.index t (1 : Fin 2) * 64 + 1 * (j 1).val = (j 1).val; omega
  rw [he]
  refine (congrArg (out0_8 (F := Ideal) (fun y : S5000x64.Idx => A0 (((cfg0.win 0).blk t).view.emb y))
      (fun y : S5000x1.Idx => A1 (((cfg0.win 1).blk t).view.emb y))
      (fun y : S5000x64.Idx => A2 (((cfg0.win 2).blk t).view.emb y))
      (fun y : S64x64.Idx => A3 (((cfg0.win 3).blk t).view.emb y))
      (fun y : S64x64.Idx => A4 (((cfg0.win 4).blk t).view.emb y))
      (fun y : S1x64.Idx => A5 (((cfg0.win 5).blk t).view.emb y))
      (fun y : S1x64.Idx => A6 (((cfg0.win 6).blk t).view.emb y))
      (fun y : S1x64.Idx => A7 (((cfg0.win 7).blk t).view.emb y))) hjx).trans ?_
  exact tile_rows (fun y : S5000x64.Idx => A0 (((cfg0.win 0).blk t).view.emb y))
      (fun y : S5000x1.Idx => A1 (((cfg0.win 1).blk t).view.emb y))
      (fun y : S5000x64.Idx => A2 (((cfg0.win 2).blk t).view.emb y))
      (fun y : S64x64.Idx => A3 (((cfg0.win 3).blk t).view.emb y))
      (fun y : S64x64.Idx => A4 (((cfg0.win 4).blk t).view.emb y))
      (fun y : S1x64.Idx => A5 (((cfg0.win 5).blk t).view.emb y))
      (fun y : S1x64.Idx => A6 (((cfg0.win 6).blk t).view.emb y))
      (fun y : S1x64.Idx => A7 (((cfg0.win 7).blk t).view.emb y))
    A0 A1 A2 A3 A4 A5 A6 A7 ⟨(j 0).val, hj0⟩ ⟨(j 1).val, hj1⟩ ⟨win0_8.index t (0 : Fin 2) * 5000 + (j 0).val, hr⟩
    (fun k => congrArg A0 (by
      funext a; apply Fin.ext
      match a with
      | ⟨0, _⟩ => show win0_0.index t (0 : Fin 2) * 5000 + 1 * (j 0).val = win0_8.index t (0 : Fin 2) * 5000 + (j 0).val; omega
      | ⟨1, _⟩ => show win0_0.index t (1 : Fin 2) * 64 + 1 * k.val = k.val; omega))
    (congrArg A1 (by
      funext a; apply Fin.ext
      match a with
      | ⟨0, _⟩ => show win0_1.index t (0 : Fin 2) * 5000 + 1 * (j 0).val = win0_8.index t (0 : Fin 2) * 5000 + (j 0).val; omega
      | ⟨1, _⟩ => show win0_1.index t (1 : Fin 2) * 1 + 1 * 0 = 0; omega))
    (fun k => congrArg A2 (by
      funext a; apply Fin.ext
      match a with
      | ⟨0, _⟩ => show win0_2.index t (0 : Fin 2) * 5000 + 1 * (j 0).val = win0_8.index t (0 : Fin 2) * 5000 + (j 0).val; omega
      | ⟨1, _⟩ => show win0_2.index t (1 : Fin 2) * 64 + 1 * k.val = k.val; omega))
    (fun k q => congrArg A3 (by
      funext a; apply Fin.ext
      match a with
      | ⟨0, _⟩ => show win0_3.index t (0 : Fin 2) * 64 + 1 * k.val = k.val; omega
      | ⟨1, _⟩ => show win0_3.index t (1 : Fin 2) * 64 + 1 * q.val = q.val; omega))
    (fun k q => congrArg A4 (by
      funext a; apply Fin.ext
      match a with
      | ⟨0, _⟩ => show win0_4.index t (0 : Fin 2) * 64 + 1 * k.val = k.val; omega
      | ⟨1, _⟩ => show win0_4.index t (1 : Fin 2) * 64 + 1 * q.val = q.val; omega))
    (fun q => congrArg A5 (by
      funext a; apply Fin.ext
      match a with
      | ⟨0, _⟩ => show win0_5.index t (0 : Fin 2) * 1 + 1 * 0 = 0; omega
      | ⟨1, _⟩ => show win0_5.index t (1 : Fin 2) * 64 + 1 * q.val = q.val; omega))
    (fun q => congrArg A6 (by
      funext a; apply Fin.ext
      match a with
      | ⟨0, _⟩ => show win0_6.index t (0 : Fin 2) * 1 + 1 * 0 = 0; omega
      | ⟨1, _⟩ => show win0_6.index t (1 : Fin 2) * 64 + 1 * q.val = q.val; omega))
    (fun q => congrArg A7 (by
      funext a; apply Fin.ext
      match a with
      | ⟨0, _⟩ => show win0_7.index t (0 : Fin 2) * 1 + 1 * 0 = 0; omega
      | ⟨1, _⟩ => show win0_7.index t (1 : Fin 2) * 64 + 1 * q.val = q.val; omega))

/-- AT ONE GRID POINT, for any contents `W` of the region's buffers: the tile written back is the point's rows of the
    dense tail of those contents. -/
theorem point_any (c : Dev nD) (W : (b : Ref sig .tc) → Buf (Elt Ideal) ((c : Thread nD τ).loc b)) (t : Fin cfg0.N) :
    (cfg0.win 8).cut (grid0.coords t) (out0_8 (F := Ideal) (blockOf c W 0 t) (blockOf c W 1 t) (blockOf c W 2 t) (blockOf c W 3 t) (blockOf c W 4 t) (blockOf c W 5 t) (blockOf c W 6 t) (blockOf c W 7 t))
      = ((cfg0.win 8).blk t).view.read (Elt Ideal) (Gof c W) := by
  funext j
  exact point_eq (W main_v16) (W main_v17) (W main_arg0) (W main_v18) (W main_v19) (W main_v20) (W main_v21) (W main_v22) t j

/-- WHAT POINT t WRITES BACK is rows 5000·t … of `G`: the point's equation at the contents the region finds. -/
theorem flushed_eq (c : Dev nD) (t : Fin cfg0.N) :
    (dats m 0 c).flushed 8 t = ((cfg0.win 8).blk t).view.read (Elt Ideal) (G m c) := by
  rw [flushed8]
  exact point_any c (V m c) t

/-- An index of the array is in point t's block iff each coordinate is in the block's range on its axis. -/
theorem mem_blk (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v23).slice (win0_8.rect t)).set ↔ _
  rw [View.set_slice_whole, Rect.mem_set_unit]
  exact Iff.rfl

/-- THE TILES COVER THE ARRAY: row r is in the tile of point r / 5000. -/
theorem cover (i : S50000x64.Idx) : ∃ t : Fin cfg0.N, (cfg0.win 8).flush t = true ∧ i ∈ ((cfg0.win 8).blk t).view.set := by
  have hi0 : (i 0).val < 50000 := (i 0).isLt
  have hi1 : (i 1).val < 64 := (i 1).isLt
  obtain ⟨t, ht⟩ := idx_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- THE ARRAY after the run is `G`. -/
theorem final (c : Dev nD) : (dats m 0 c).arrAt 8 cfg0.N = G m c :=
  (dats m 0 c).arrAt_eq_of_cover 8 (G m c) (fun t _ => flushed_eq m c t) cover

/-- The frame run re-posted: the result array at `G`, the arguments unchanged. -/
theorem run : θ_run defs (onTc (τ := τ) (main (F := Ideal))) ⟨m, fun _ => 0, ρ⟩ fun r => ∀ c : Dev nD,
      r.2.mem ((c : Thread nD τ).loc main_v23) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.KernelSums.lean ====
/-
  What the kernel's region finds in its first two windows: the per-node sums and counts.

  Before the region the host gathers, for each of the 800000 edges, the source node's 64 features (a negative node number
  counted from the end, as array indexing does), lays a column of ones beside them (800000×65), and scatter-adds the rows
  by destination node into 50000×65 zeros. Window 0 is columns 0–63 of that array (the neighbour sums), window 1 is column
  64 (the neighbour counts, as a 50000×1 column).
-/
import proofs.«164882_j67233418051656_2_alg».proof.Proof.Gen.KernelIdeal.Value
import Idealize.ShloMosaic.Lib.StableHlo.Run
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.StableHlo

/-- The destination node of each edge (row 1 of the edge list), as an 800000×1 column of indices. -/
def dstCol (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- The source node of each edge (row 0 of the edge list). -/
def srcRow (ei : IVec S2x800000 32) : IVec S800000 32 :=
  shapeCast S800000 (extractStridedSlice S1x800000 ![0, 0] ei slices_S2x800000_S1x800000_0_0) shapeCasts_S1x800000_S800000

/-- The source nodes, a negative one counted from the end (plus 50000), as an 800000×1 column of indices. -/
def srcCol (ei : IVec S2x800000 32) : IVec S800000x1 32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32))) (srcRow ei))

/-- The messages: the source node's features, edge by edge. -/
def msgs (x : FVec Ideal S50000x64 .f32) (ei : IVec S2x800000 32) : FVec Ideal S800000x64 .f32 :=
  Host.gather gather_S50000x64_S800000x1_S800000x64_1_0_n_n_0_1_164 x (srcCol ei)

/-- A column of ones, one per edge. -/
def onesCol : FVec Ideal S800000x1 .f32 :=
  broadcastInDim S800000x1 ![] bcast_S_S800000x1 (constant (F := Ideal) S_ .f32 0x3F800000#32)

/-- The messages with the ones beside them, scatter-added by destination into zeros: sums and counts at once. -/
def aug (x : FVec Ideal S50000x64 .f32) (ei : IVec S2x800000 32) : FVec Ideal S50000x65 .f32 :=
  Host.scatterAdd scatter_S50000x65_S800000x1_S800000x65_1_0_0_1
    (broadcastInDim S50000x65 ![] bcast_S_S50000x65 (constant (F := Ideal) S_ .f32 0x00000000#32))
    (dstCol ei)
    (concatenate S800000x65 1 [⟨S800000x64, msgs x ei⟩, ⟨S800000x1, onesCol⟩] concatenates_S800000x64_S800000x1_S800000x65_d1)

variable (m : (ℓ : Loc nD τ sig) → Buf (Elt Ideal) ℓ) (c : Dev nD)

set_option maxHeartbeats 2000000 in
/-- Window 0's array as the region finds it: the first 64 columns. -/
theorem V_sums : (V m c main_v16 : S50000x64.Idx → EReal)
    = extractStridedSlice S50000x64 ![0, 0] (aug (m ((c : Thread nD τ).loc main_arg0)) (m ((c : Thread nD τ).loc main_arg6))) slices_S50000x65_S50000x64_0_0 := by
  dsimp only [Gen.V, Gen.hostOps0]
  after_results
  rfl

set_option maxHeartbeats 2000000 in
/-- Window 1's array as the region finds it: the last column. -/
theorem V_counts : (V m c main_v17 : S50000x1.Idx → EReal)
    = extractStridedSlice S50000x1 ![0, 64] (aug (m ((c : Thread nD τ).loc main_arg0)) (m ((c : Thread nD τ).loc main_arg6))) slices_S50000x65_S50000x1_0_64 := by
  dsimp only [Gen.V, Gen.hostOps0]
  after_results
  rfl

end Cert.KernelIdeal.HostSide

end
-- ==== Proof.KernelRows.lean ====
/-
  What the kernel's region finds in its other input windows: the node features as launched, the two weight matrices
  transposed, and the bias, scale and shift vectors as 1×64 rows.
-/
import proofs.«164882_j67233418051656_2_alg».proof.Proof.Gen.KernelIdeal.Value
import Idealize.ShloMosaic.Lib.StableHlo.Run
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

set_option maxHeartbeats 2000000 in
theorem V_wl : (V m c main_v18 : S64x64.Idx → EReal) = transpose S64x64 [1, 0] (m ((c : Thread nD τ).loc main_arg1)) transposes_S64x64_S64x64_1_0 := by
  dsimp only [Gen.V, Gen.hostOps0]
  after_results

set_option maxHeartbeats 2000000 in
theorem V_wr : (V m c main_v19 : S64x64.Idx → EReal) = transpose S64x64 [1, 0] (m ((c : Thread nD τ).loc main_arg2)) transposes_S64x64_S64x64_1_0 := by
  dsimp only [Gen.V, Gen.hostOps0]
  after_results

set_option maxHeartbeats 2000000 in
theorem V_bias : (V m c main_v20 : S1x64.Idx → EReal) = shapeCast S1x64 (m ((c : Thread nD τ).loc main_arg3)) shapeCasts_S64_S1x64 := by
  dsimp only [Gen.V, Gen.hostOps0]
  after_results
  rfl

set_option maxHeartbeats 2000000 in
theorem V_scale : (V m c main_v21 : S1x64.Idx → EReal) = shapeCast S1x64 (m ((c : Thread nD τ).loc main_arg4)) shapeCasts_S64_S1x64 := by
  dsimp only [Gen.V, Gen.hostOps0]
  after_results
  rfl

set_option maxHeartbeats 2000000 in
theorem V_shift : (V m c main_v22 : S1x64.Idx → EReal) = shapeCast S1x64 (m ((c : Thread nD τ).loc main_arg5)) shapeCasts_S64_S1x64 := by
  dsimp only [Gen.V, Gen.hostOps0]
  after_results
  rfl

end Cert.KernelIdeal.HostSide

end
-- ==== Proof.RefTail.lean ====
/-
  The reference program's dense tail, index by index.

  After its two scatter-adds — the per-node sums of the gathered messages (50000×64) and the per-node edge counts (a vector
  of 50000) — the reference divides the sums by the counts (at least 1), applies the two transposed weight matrices and the
  bias, normalises each row of 64 (mean, mean of the squared deviations, reciprocal square root), scales, shifts and
  rectifies. Read at (n, c), its result is `SageNorm.out` of those two scatter results — the counts as a 50000×1 column —,
  the node features, the two transposes and the three vectors as 1×64 rows: every stage here is pointwise, a broadcast,
  a product read as a sum over k, or a row sum from the zero word (which adds nothing).
-/
import proofs.«164882_j67233418051656_2_alg».proof.Proof.Gen.ReferenceIdeal.Read
import proofs.«164882_j67233418051656_2_alg».proof.Proof.SageNorm
import Idealize.ShloMosaic.Lib.ValueIdx
import Idealize.ShloMosaic.PureOps.Ideal.Laws

noncomputable section

namespace Cert.ReferenceIdeal.RefTail

open Cert.ReferenceIdeal Cert.ReferenceIdeal.Gen Cert.ReferenceIdeal.Read Idealize.ShloMosaic Idealize.ShloMosaic.ValueIdx

/-- Two rank-2 (or rank-1) indices are equal when their coordinates are, literal axis by literal axis. -/
local macro "idx_rfl" : tactic =>
  `(tactic| (funext a; refine Fin.ext ?_; first | (match a with | ⟨0, _⟩ => rfl | ⟨1, _⟩ => rfl) | (match a with | ⟨0, _⟩ => rfl)))

variable (x0 : (⟨S50000x64, .f32⟩ : BufTy).Contents (Elt Ideal)) (x1 x2 : (⟨S64x64, .f32⟩ : BufTy).Contents (Elt Ideal))
  (x3 x4 x5 : (⟨S64, .f32⟩ : BufTy).Contents (Elt Ideal)) (x6 : (⟨S2x800000, .i32⟩ : BufTy).Contents (Elt Ideal))

/-- The per-node edge counts as a 50000×1 column. -/
def countCol : SageNorm.Mat 50000 1 := fun i => val_main_v17 (F := Ideal) x6 (ix1 (i 0))

/-- The sums divided by the counts, at least 1: the neighbours' mean. -/
theorem mean_apply (n : Fin 50000) (k : Fin 64) :
    val_main_v22 (F := Ideal) x0 x6 (ix2 n k) = SageNorm.nbrMean (val_main_v13 (F := Ideal) x0 x6) (countCol x6) n k := by
  have e : idx_main_v20 (idx_main_v21 (ix2 n k)) = ix1 n := by idx_rfl
  rw [val_main_v22_apply, val_main_v21_apply, val_main_v20_apply, val_main_v19_apply, val_main_v18_apply, val_main_cst_3_apply, e]
  rfl

/-- The layer before normalisation. -/
theorem lin_apply (n : Fin 50000) (c : Fin 64) :
    val_main_v30 (F := Ideal) x0 x1 x2 x3 x6 (ix2 n c) = SageNorm.lin (val_main_v13 (F := Ideal) x0 x6) (countCol x6) x0 (val_main_v23 (F := Ideal) x1) (val_main_v25 (F := Ideal) x2) (val_main_v28 (F := Ideal) x3) n c := by
  have el : ∀ k : Fin 64, lidx_main_v24 (ix2 n c) k = ix2 n k := fun k => by idx_rfl
  have er : ∀ k : Fin 64, ridx_main_v24 (ix2 n c) k = ix2 k c := fun k => by idx_rfl
  have el' : ∀ k : Fin 64, lidx_main_v26 (ix2 n c) k = ix2 n k := fun k => by idx_rfl
  have er' : ∀ k : Fin 64, ridx_main_v26 (ix2 n c) k = ix2 k c := fun k => by idx_rfl
  have eb : idx_main_v29 (ix2 n c) = ix2 (0 : Fin 1) c := by idx_rfl
  rw [val_main_v30_apply, val_main_v27_apply, val_main_v24_apply, val_main_v26_apply, val_main_v29_apply, eb]
  have s1 : (∑ k : Fin 64, val_main_v22 (F := Ideal) x0 x6 (lidx_main_v24 (ix2 n c) k) * val_main_v23 (F := Ideal) x1 (ridx_main_v24 (ix2 n c) k))
      = ∑ k : Fin 64, SageNorm.nbrMean (val_main_v13 (F := Ideal) x0 x6) (countCol x6) n k * val_main_v23 (F := Ideal) x1 (ix2 k c) :=
    Finset.sum_congr rfl fun k _ => by rw [el k, er k, mean_apply]
  have s2 : (∑ k : Fin 64, x0 (lidx_main_v26 (ix2 n c) k) * val_main_v25 (F := Ideal) x2 (ridx_main_v26 (ix2 n c) k))
      = ∑ k : Fin 64, x0 (ix2 n k) * val_main_v25 (F := Ideal) x2 (ix2 k c) :=
    Finset.sum_congr rfl fun k _ => by rw [el' k, er' k]
  rw [s1, s2]
  rfl

/-- The row mean, as a column. -/
theorem rowMean_apply (n : Fin 50000) (u : Fin 1) :
    val_main_v34 (F := Ideal) x0 x1 x2 x3 x6 (ix2 n u) = SageNorm.rowMean (fun c => SageNorm.lin (val_main_v13 (F := Ideal) x0 x6) (countCol x6) x0 (val_main_v23 (F := Ideal) x1) (val_main_v25 (F := Ideal) x2) (val_main_v28 (F := Ideal) x3) n c) := by
  have e1 : idx_main_v32 (ix2 n u) = ix1 n := by idx_rfl
  have e2 : ∀ k : Fin 64, idx_main_v31 (ix1 n) k = ix2 n k := fun k => by idx_rfl
  rw [val_main_v34_apply, val_main_v32_apply, val_main_v31_apply, val_main_v33_apply, val_main_cst_4_apply, val_main_cst_5_apply, e1]
  have s : (∑ k : Fin 64, val_main_v30 (F := Ideal) x0 x1 x2 x3 x6 (idx_main_v31 (ix1 n) k)) = ∑ c : Fin 64, SageNorm.lin (val_main_v13 (F := Ideal) x0 x6) (countCol x6) x0 (val_main_v23 (F := Ideal) x1) (val_main_v25 (F := Ideal) x2) (val_main_v28 (F := Ideal) x3) n c :=
    Finset.sum_congr rfl fun k _ => by rw [e2 k, lin_apply]
  rw [s]
  show Ideal.div (Ideal.ofBits .f32 0x00000000#32 + _) _ = _
  rw [Ideal.ofBits_zero_f32, zero_add]
  rfl

/-- The deviations from the row mean (the program computes them twice, the same way). -/
theorem centered_apply (n : Fin 50000) (c : Fin 64) :
    val_main_v36 (F := Ideal) x0 x1 x2 x3 x6 (ix2 n c) = SageNorm.centered (fun c' => SageNorm.lin (val_main_v13 (F := Ideal) x0 x6) (countCol x6) x0 (val_main_v23 (F := Ideal) x1) (val_main_v25 (F := Ideal) x2) (val_main_v28 (F := Ideal) x3) n c') c := by
  have e : idx_main_v35 (ix2 n c) = ix2 n (0 : Fin 1) := by idx_rfl
  rw [val_main_v36_apply, val_main_v35_apply, e, rowMean_apply, lin_apply]
  rfl

theorem centered_apply' (n : Fin 50000) (c : Fin 64) :
    val_main_v43 (F := Ideal) x0 x1 x2 x3 x6 (ix2 n c) = SageNorm.centered (fun c' => SageNorm.lin (val_main_v13 (F := Ideal) x0 x6) (countCol x6) x0 (val_main_v23 (F := Ideal) x1) (val_main_v25 (F := Ideal) x2) (val_main_v28 (F := Ideal) x3) n c') c := by
  have e : idx_main_v42 (ix2 n c) = ix2 n (0 : Fin 1) := by idx_rfl
  rw [val_main_v43_apply, val_main_v42_apply, e, rowMean_apply, lin_apply]
  rfl

/-- The reciprocal standard deviation, as a column. -/
theorem invStd_apply (n : Fin 50000) (u : Fin 1) :
    val_main_v46 (F := Ideal) x0 x1 x2 x3 x6 (ix2 n u) = SageNorm.invStd (fun c => SageNorm.lin (val_main_v13 (F := Ideal) x0 x6) (countCol x6) x0 (val_main_v23 (F := Ideal) x1) (val_main_v25 (F := Ideal) x2) (val_main_v28 (F := Ideal) x3) n c) := by
  have e1 : idx_main_v39 (ix2 n u) = ix1 n := by idx_rfl
  have e2 : ∀ k : Fin 64, idx_main_v38 (ix1 n) k = ix2 n k := fun k => by idx_rfl
  rw [val_main_v46_apply, val_main_v45_apply, val_main_v41_apply, val_main_v39_apply, val_main_v38_apply, val_main_v40_apply,
    val_main_v44_apply, val_main_cst_6_apply, val_main_cst_7_apply, val_main_cst_8_apply, e1]
  have s : (∑ k : Fin 64, val_main_v37 (F := Ideal) x0 x1 x2 x3 x6 (idx_main_v38 (ix1 n) k))
      = ∑ c : Fin 64, SageNorm.centered (fun c' => SageNorm.lin (val_main_v13 (F := Ideal) x0 x6) (countCol x6) x0 (val_main_v23 (F := Ideal) x1) (val_main_v25 (F := Ideal) x2) (val_main_v28 (F := Ideal) x3) n c') c * SageNorm.centered (fun c' => SageNorm.lin (val_main_v13 (F := Ideal) x0 x6) (countCol x6) x0 (val_main_v23 (F := Ideal) x1) (val_main_v25 (F := Ideal) x2) (val_main_v28 (F := Ideal) x3) n c') c :=
    Finset.sum_congr rfl fun k _ => by rw [e2 k, val_main_v37_apply, centered_apply]; rfl
  rw [s]
  show Ideal.rsqrt (Ideal.div (Ideal.ofBits .f32 0x00000000#32 + _) _ + _) = _
  rw [Ideal.ofBits_zero_f32, zero_add]
  rfl

/-- THE REFERENCE'S RESULT READ AT (n, c) is the dense tail of its scatter results. -/
theorem result_apply (n : Fin 50000) (c : Fin 64) :
    val_main_v55 (F := Ideal) x0 x1 x2 x3 x4 x5 x6 (ix2 n c)
      = SageNorm.out (val_main_v13 (F := Ideal) x0 x6) (countCol x6) x0 (val_main_v23 (F := Ideal) x1) (val_main_v25 (F := Ideal) x2)
          (val_main_v28 (F := Ideal) x3) (val_main_v49 (F := Ideal) x4) (val_main_v52 (F := Ideal) x5) n c := by
  have e1 : idx_main_v47 (ix2 n c) = ix2 n (0 : Fin 1) := by idx_rfl
  have e2 : idx_main_v50 (ix2 n c) = ix2 (0 : Fin 1) c := by idx_rfl
  have e3 : idx_main_v53 (ix2 n c) = ix2 (0 : Fin 1) c := by idx_rfl
  rw [val_main_v55_apply, val_main_v54_apply, val_main_v51_apply, val_main_v48_apply, val_main_v47_apply, val_main_v50_apply,
    val_main_v53_apply, val_main_call0_v0_apply, val_main_call0_cst_apply, e1, e2, e3, centered_apply', invStd_apply]
  rfl

end Cert.ReferenceIdeal.RefTail

end
-- ==== Proof.LibSparseRows.lean ====
/-
  Row gathers, row scatter-adds and sparse products on the host, read at an index.

  A sparse matrix given by its edges — for each of E edges a row number, a column number and a value — acts on an N×F
  matrix h by  out[n, f] = Σ over the edges e into row n of  val[e] · h[col[e], f].  On the host this is a GATHER of the rows
  `h[col]` (E×F), a product with the values laid along the columns, and a SCATTER-ADD of the E×F products into N×F zeros
  by the row numbers (a segment sum). Read at an index:
  • the row gather at (e, f) is the operand at (r, f), r the index col[e] read signed and clamped into [0, N − 1];
  • the row scatter-add at (n, f) is the operand's entry plus the sum, over the update rows whose index — read signed, not
    clamped — is n, of the update's entry (e, f); an update row whose index is no row of the operand adds nothing;
  • so the product at (n, f) is that sum of val · h over the edges into n, and it reads column f of h only: the product of
    several matrices laid side by side is the products of each laid side by side (`spmm_cols`).
  Every statement is at the ideal values (floats are extended reals); none needs a finiteness hypothesis.
-/
import Idealize.ShloMosaic.Lib.ValueIdx
import Idealize.ShloMosaic.PureOps.Ideal.Laws

noncomputable section

namespace GatherRows

open Idealize.ShloMosaic Idealize.ShloMosaic.ValueIdx

variable {α : Type} {N E F w : Nat}

/-- The dimension numbers of a row gather from an N×F operand by E×1 start indices. -/
abbrev rowDims (N E F : Nat)
    (wf : GatherDims.WF (⟨2, ![N, F]⟩ : Shape) ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

variable (wf : GatherDims.WF (⟨2, ![N, F]⟩ : Shape) ⟨2, ![E, 1]⟩ ⟨2, ![E, F]⟩ [1] [0] [] [0] [] 1 ![1, F])

/-- THE ROW GATHER READ AT (e, f): the operand at the row idx[e] names — read signed, clamped into the operand — and
    column f. -/
theorem gather_rows_apply (hN : 0 < N) (x : (⟨2, ![N, F]⟩ : Shape).Idx → α) (idx : IVec ⟨2, ![E, 1]⟩ w) (e : Fin E) (f : Fin F) :
    Host.gather (rowDims N E F wf) x idx (ix2 e f)
      = x (ix2 (⟨min (idx (ix2 e (0 : Fin 1))).toInt.toNat (N - 1), by omega⟩ : Fin N) f) := by
  unfold Host.gather
  congr 1
  funext a
  refine Fin.ext ?_
  have hb : ∀ a : Fin 2, (rowDims N E F wf).batchCoord (ix2 e f) a = 0 := fun a =>
    GatherDims.batchCoord_eq_zero _ _ _ List.not_mem_nil
  match a with
  | ⟨0, _⟩ =>
    show (rowDims N E F wf).start (ix2 e f) idx 0 + (rowDims N E F wf).batchCoord (ix2 e f) 0 + (rowDims N E F wf).offCoord (ix2 e f) 0 = _
    have h0 : (0 : Fin 2) ∉ (rowDims N E F wf).sKept :=
      (show (0 : Fin 2) ∉ (List.finRange 2).filter (· ∉ [(0 : Fin 2)] ++ []) by decide)
    rw [hb 0, GatherDims.offCoord_eq_zero _ _ _ h0]
    simp only [Nat.add_zero]
    unfold GatherDims.start
    rw [dif_pos (show (0 : Fin 2) ∈ [(0 : Fin 2)] from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1 + (rowDims N E F wf).offCoord (ix2 e f) 1 = f.val
    have h1 : (1 : Fin 2) ∈ (rowDims N E F wf).sKept :=
      (show (1 : Fin 2) ∈ (List.finRange 2).filter (· ∉ [(0 : Fin 2)] ++ []) by decide)
    rw [hb 1]
    unfold GatherDims.start GatherDims.offCoord
    rw [dif_neg (show (1 : Fin 2) ∉ [(0 : Fin 2)] by decide), dif_pos h1]
    simp only [Nat.zero_add, Nat.add_zero]
    rfl

end GatherRows

namespace ScatterRows

open Idealize.ShloMosaic Idealize.ShloMosaic.ValueIdx

variable {N E F w : Nat}

/-- The dimension numbers of a row scatter into an N×F operand from E×1 indices and E×F updates. -/
abbrev rowDims (N E F : Nat) (wf : ScatterDims.WF (⟨2, ![N, F]⟩ : Shape) ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF (⟨2, ![N, F]⟩ : Shape) ⟨2, ![E, 1]⟩ ⟨2, ![E, F]⟩ [1] [0] [0] 1)

/-- On the row axis an update has no window coordinate. -/
theorem window_row (j : (⟨2, ![E, F]⟩ : Shape).Idx) : (rowDims N E F wf).window j 0 = 0 := by
  have h : (0 : Fin 2) ∉ (rowDims N E F wf).sKept :=
    (show (0 : Fin 2) ∉ (List.finRange 2).filter (· ∉ [(0 : Fin 2)]) by decide)
  unfold ScatterDims.window
  rw [dif_neg h]

/-- On the column axis its window coordinate is its own column. -/
theorem window_col (j : (⟨2, ![E, F]⟩ : Shape).Idx) : (rowDims N E F wf).window j 1 = (j 1).val := by
  have h : (1 : Fin 2) ∈ (rowDims N E F wf).sKept :=
    (show (1 : Fin 2) ∈ (List.finRange 2).filter (· ∉ [(0 : Fin 2)]) by decide)
  unfold ScatterDims.window
  rw [dif_pos h]
  rfl

/-- The window starts at column 0. -/
theorem start_col (j : (⟨2, ![E, F]⟩ : Shape).Idx) (idx : IVec ⟨2, ![E, 1]⟩ w) : (rowDims N E F wf).start j idx 1 = 0 := by
  unfold ScatterDims.start
  rw [dif_neg (show (1 : Fin 2) ∉ [(0 : Fin 2)] by decide)]

/-- The window starts at the row the update row's index names, read signed. -/
theorem start_row (j : (⟨2, ![E, F]⟩ : Shape).Idx) (idx : IVec ⟨2, ![E, 1]⟩ w) :
    (rowDims N E F wf).start j idx 0 = (idx (ix2 (j 0 : Fin E) (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- Update entry `j` lands on the operand's entry (n, f) exactly when its row's index, read signed, is n and its column is f. -/
theorem resultIdx_eq_some_iff (j : (⟨2, ![E, F]⟩ : Shape).Idx) (idx : IVec ⟨2, ![E, 1]⟩ w) (n : Fin N) (f : Fin F) :
    (rowDims N E F wf).resultIdx? j idx = some (ix2 n f)
      ↔ (idx (ix2 (j 0 : Fin E) (0 : Fin 1))).toInt = (n.val : ℤ) ∧ (j 1 : Fin F) = f := by
  unfold ScatterDims.resultIdx?
  constructor
  · intro h
    split at h
    · rename_i hr
      have he := Option.some.inj h
      have e0 := congrArg (fun g => (g 0).val) he
      have e1 := congrArg (fun g => (g 1).val) he
      simp only [start_row, start_col, window_row, window_col] at e0 e1
      have h0 := hr 0
      simp only [start_row, window_row] at h0
      refine ⟨?_, Fin.ext ?_⟩
      · have : ((idx (ix2 (j 0 : Fin E) (0 : Fin 1))).toInt + 0).toNat = n.val := e0
        omega
      · have : ((0 : ℤ) + ((j 1).val : ℤ)).toNat = f.val := e1
        omega
    · exact absurd h (by simp)
  · rintro ⟨h0, h1⟩
    have hn := n.isLt
    have hj : (j 1).val < F := (j 1).isLt
    have s0 : (rowDims N E F wf).start j idx 0 + ((rowDims N E F wf).window j 0 : ℤ) = (n.val : ℤ) := by
      rw [start_row, window_row, h0]; omega
    have s1 : (rowDims N E F wf).start j idx 1 + ((rowDims N E F wf).window j 1 : ℤ) = ((j 1).val : ℤ) := by
      rw [start_col, window_col]; omega
    have hr : ∀ a, 0 ≤ (rowDims N E F wf).start j idx a + (rowDims N E F wf).window j a
        ∧ (rowDims N E F wf).start j idx a + (rowDims N E F wf).window j a < (⟨2, ![N, F]⟩ : Shape).size a := fun a =>
      match a with
      | ⟨0, _⟩ => (show 0 ≤ (rowDims N E F wf).start j idx 0 + ((rowDims N E F wf).window j 0 : ℤ)
          ∧ (rowDims N E F wf).start j idx 0 + ((rowDims N E F wf).window j 0 : ℤ) < ((N : ℕ) : ℤ) by rw [s0]; omega)
      | ⟨1, _⟩ => (show 0 ≤ (rowDims N E F wf).start j idx 1 + ((rowDims N E F wf).window j 1 : ℤ)
          ∧ (rowDims N E F wf).start j idx 1 + ((rowDims N E F wf).window j 1 : ℤ) < ((F : ℕ) : ℤ) by rw [s1]; omega)
    rw [dif_pos hr]
    congr 1
    funext a
    refine Fin.ext ?_
    match a with
    | ⟨0, _⟩ =>
      show ((rowDims N E F wf).start j idx 0 + ((rowDims N E F wf).window j 0 : ℤ)).toNat = n.val
      rw [s0]; omega
    | ⟨1, _⟩ =>
      show ((rowDims N E F wf).start j idx 1 + ((rowDims N E F wf).window j 1 : ℤ)).toNat = f.val
      rw [s1, ← h1]; omega

/-- THE ROW SCATTER-ADD READ AT (n, f): the operand's entry plus the sum, over the update rows whose index is n, of the
    update's entry in column f. -/
theorem hostScatterAdd_rows_apply (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd (rowDims N E F wf) x idx upd (ix2 n f)
      = x (ix2 n f) + ∑ e : Fin E, if (idx (ix2 e (0 : Fin 1))).toInt = (n.val : ℤ) then upd (ix2 e f) else 0 := by
  unfold Ideal.hostScatterAdd
  congr 1
  rw [Finset.sum_filter, sum_idx2]
  refine Finset.sum_congr rfl fun e _ => ?_
  have hiff : ∀ b : Fin F, (rowDims N E F wf).resultIdx? (ix2 e b) idx = some (ix2 n f)
      ↔ ((idx (ix2 e (0 : Fin 1))).toInt = (n.val : ℤ) ∧ b = f) :=
    fun b => resultIdx_eq_some_iff wf (ix2 e b) idx n f
  by_cases hc : (idx (ix2 e (0 : Fin 1))).toInt = (n.val : ℤ)
  · rw [if_pos hc]
    rw [Finset.sum_eq_single f]
    · rw [if_pos ((hiff f).mpr ⟨hc, rfl⟩)]
    · intro b _ hb
      rw [if_neg fun h => hb ((hiff b).mp h).2]
    · intro h; exact absurd (Finset.mem_univ f) h
  · rw [if_neg hc]
    refine Finset.sum_eq_zero fun b _ => ?_
    rw [if_neg fun h => hc ((hiff b).mp h).1]

/-- The same of the host operation at the ideal instance, as a printed program spells it. -/
theorem scatterAdd_rows_apply {φ : FTy} (x : FVec Ideal ⟨2, ![N, F]⟩ φ) (idx : IVec ⟨2, ![E, 1]⟩ w)
    (upd : FVec Ideal ⟨2, ![E, F]⟩ φ) (n : Fin N) (f : Fin F) :
    Host.scatterAdd (rowDims N E F wf) x idx upd (ix2 n f)
      = x (ix2 n f) + ∑ e : Fin E, if (idx (ix2 e (0 : Fin 1))).toInt = (n.val : ℤ) then upd (ix2 e f) else 0 :=
  hostScatterAdd_rows_apply wf x idx upd n f

/-- COLUMNS DO NOT MIX: two row scatters by the same indices, of any two widths, agree at a pair of columns on which
    their operands agree and their updates agree. So a scatter of matrices laid side by side is, column block by column
    block, the scatter of each. -/
theorem hostScatterAdd_rows_col {F' : Nat}
    (wf' : ScatterDims.WF (⟨2, ![N, F']⟩ : Shape) ⟨2, ![E, 1]⟩ ⟨2, ![E, F']⟩ [1] [0] [0] 1)
    (x : (⟨2, ![N, F]⟩ : Shape).Idx → EReal) (x' : (⟨2, ![N, F']⟩ : Shape).Idx → EReal) (idx : IVec ⟨2, ![E, 1]⟩ w)
    (upd : (⟨2, ![E, F]⟩ : Shape).Idx → EReal) (upd' : (⟨2, ![E, F']⟩ : Shape).Idx → EReal) (f : Fin F) (f' : Fin F')
    (hx : ∀ n : Fin N, x (ix2 n f) = x' (ix2 n f')) (hu : ∀ e : Fin E, upd (ix2 e f) = upd' (ix2 e f')) (n : Fin N) :
    Ideal.hostScatterAdd (rowDims N E F wf) x idx upd (ix2 n f)
      = Ideal.hostScatterAdd (rowDims N E F' wf') x' idx upd' (ix2 n f') := by
  rw [hostScatterAdd_rows_apply wf, hostScatterAdd_rows_apply wf', hx n]
  congr 1
  exact Finset.sum_congr rfl fun e _ => by rw [hu e]

end ScatterRows

namespace SparseRows

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- The clamped row an edge's column index names. -/
abbrev clampRow (hN : 0 < N) (ci : IVec ⟨2, ![E, 1]⟩ w) (e : Fin E) : Fin N :=
  ⟨min (ci (ix2 e (0 : Fin 1))).toInt.toNat (N - 1), by omega⟩

/-- THE SPARSE PRODUCT READ AT (n, f): scatter-adding, by the row indices `ri`, the products of the values `v` (laid out
    E×F) with the rows of `h` gathered by the column indices `ci`, onto `z`: the entry of `z` plus the sum over the edges
    into row n of value times `h` at the edge's column row, in column f. -/
theorem spmm_apply (hN : 0 < N) (z : (⟨2, ![N, F]⟩ : Shape).Idx → EReal) (ri ci : IVec ⟨2, ![E, 1]⟩ w)
    (v : (⟨2, ![E, F]⟩ : Shape).Idx → EReal) (h : (⟨2, ![N, F]⟩ : Shape).Idx → EReal) (n : Fin N) (f : Fin F) :
    Ideal.hostScatterAdd (ScatterRows.rowDims N E F wfs) z ri
        (fun j => v j * Host.gather (GatherRows.rowDims N E F wfg) h ci j) (ix2 n f)
      = z (ix2 n f) + ∑ e : Fin E, if (ri (ix2 e (0 : Fin 1))).toInt = (n.val : ℤ)
          then v (ix2 e f) * h (ix2 (clampRow hN ci e) f) else 0 := by
  rw [ScatterRows.hostScatterAdd_rows_apply wfs]
  congr 1
  refine Finset.sum_congr rfl fun e _ => ?_
  rw [GatherRows.gather_rows_apply wfg hN]

/-- SIDE BY SIDE: two sparse products by the same edges, of widths F and F', agree at a pair of columns on which the
    matrices, the laid-out values and the scatter's operands agree. A product over matrices laid side by side is therefore,
    column block by column block, the product over each. -/
theorem spmm_cols {F' : Nat}
    (wfg' : GatherDims.WF (⟨2, ![N, F']⟩ : Shape) ⟨2, ![E, 1]⟩ ⟨2, ![E, F']⟩ [1] [0] [] [0] [] 1 ![1, F'])
    (wfs' : ScatterDims.WF (⟨2, ![N, F']⟩ : Shape) ⟨2, ![E, 1]⟩ ⟨2, ![E, F']⟩ [1] [0] [0] 1)
    (hN : 0 < N) (ri ci : IVec ⟨2, ![E, 1]⟩ w)
    (z : (⟨2, ![N, F]⟩ : Shape).Idx → EReal) (z' : (⟨2, ![N, F']⟩ : Shape).Idx → EReal)
    (v : (⟨2, ![E, F]⟩ : Shape).Idx → EReal) (v' : (⟨2, ![E, F']⟩ : Shape).Idx → EReal)
    (h : (⟨2, ![N, F]⟩ : Shape).Idx → EReal) (h' : (⟨2, ![N, F']⟩ : Shape).Idx → EReal) (f : Fin F) (f' : Fin F')
    (hz : ∀ n : Fin N, z (ix2 n f) = z' (ix2 n f')) (hv : ∀ e : Fin E, v (ix2 e f) = v' (ix2 e f'))
    (hh : ∀ n : Fin N, h (ix2 n f) = h' (ix2 n f')) (n : Fin N) :
    Ideal.hostScatterAdd (ScatterRows.rowDims N E F wfs) z ri
        (fun j => v j * Host.gather (GatherRows.rowDims N E F wfg) h ci j) (ix2 n f)
      = Ideal.hostScatterAdd (ScatterRows.rowDims N E F' wfs') z' ri
        (fun j => v' j * Host.gather (GatherRows.rowDims N E F' wfg') h' ci j) (ix2 n f') := by
  rw [spmm_apply wfg wfs hN, spmm_apply wfg' wfs' hN, hz n]
  congr 1
  exact Finset.sum_congr rfl fun e _ => by rw [hv e, hh]

end SparseRows

end
-- ==== Proof.LibCountScatter.lean ====
/-
  A vector scatter-add on the host, read at an index: counting the edges into each node.

  Scatter-adding a vector of E values into a vector of N entries by E row numbers adds, to entry n, the values whose row
  number — read signed, not clamped — is n; a value whose row number is no entry of the operand adds nothing. With every
  value 1 and the operand 0 this counts the edges into each node.

  The same number is a column of a ROW scatter-add: if an E×F' matrix of updates carries the values in one of its columns,
  scatter-adding its rows by the same row numbers leaves, in that column of row n, the same sum. So a column of ones laid
  beside the messages and scatter-added once gives the per-node sums and the per-node count together.
  Every statement is at the ideal values (floats are extended reals); none needs a finiteness hypothesis.
-/
import Idealize.ShloMosaic.Lib.ValueIdx
import Idealize.ShloMosaic.PureOps.Ideal.Laws
import proofs.«164882_j67233418051656_2_alg».proof.Proof.LibSparseRows

noncomputable section

namespace ScatterVec

open Idealize.ShloMosaic Idealize.ShloMosaic.ValueIdx

variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter into a vector of N entries from E×1 indices and E updates. -/
abbrev vecDims (N E : Nat) (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF (⟨1, ![N]⟩ : Shape) ⟨2, ![E, 1]⟩ ⟨1, ![E]⟩ [] [0] [0] 1)

/-- An update is a single value: it has no window coordinate. -/
theorem window_entry (j : (⟨1, ![E]⟩ : Shape).Idx) : (vecDims N E wf).window j 0 = 0 := by
  have h : (0 : Fin 1) ∉ (vecDims N E wf).sKept :=
    (show (0 : Fin 1) ∉ (List.finRange 1).filter (· ∉ [(0 : Fin 1)]) by decide)
  unfold ScatterDims.window
  rw [dif_neg h]

/-- It lands on the entry its index names, read signed. -/
theorem start_entry (j : (⟨1, ![E]⟩ : Shape).Idx) (idx : IVec ⟨2, ![E, 1]⟩ w) :
    (vecDims N E wf).start j idx 0 = (idx (ix2 (j 0 : Fin E) (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- Update `j` lands on the operand's entry n exactly when its index, read signed, is n. -/
theorem resultIdx_eq_some_iff (j : (⟨1, ![E]⟩ : Shape).Idx) (idx : IVec ⟨2, ![E, 1]⟩ w) (n : Fin N) :
    (vecDims N E wf).resultIdx? j idx = some (ix1 n) ↔ (idx (ix2 (j 0 : Fin E) (0 : Fin 1))).toInt = (n.val : ℤ) := by
  unfold ScatterDims.resultIdx?
  constructor
  · intro h
    split at h
    · rename_i hr
      have he := Option.some.inj h
      have e0 := congrArg (fun g => (g 0).val) he
      simp only [start_entry, window_entry] at e0
      have h0 := hr 0
      simp only [start_entry, window_entry] at h0
      have : ((idx (ix2 (j 0 : Fin E) (0 : Fin 1))).toInt + 0).toNat = n.val := e0
      omega
    · exact absurd h (by simp)
  · intro h0
    have hn := n.isLt
    have s0 : (vecDims N E wf).start j idx 0 + ((vecDims N E wf).window j 0 : ℤ) = (n.val : ℤ) := by
      rw [start_entry, window_entry, h0]; omega
    have hr : ∀ a, 0 ≤ (vecDims N E wf).start j idx a + (vecDims N E wf).window j a
        ∧ (vecDims N E wf).start j idx a + (vecDims N E wf).window j a < (⟨1, ![N]⟩ : Shape).size a := fun a =>
      match a with
      | ⟨0, _⟩ => (show 0 ≤ (vecDims N E wf).start j idx 0 + ((vecDims N E wf).window j 0 : ℤ)
          ∧ (vecDims N E wf).start j idx 0 + ((vecDims N E wf).window j 0 : ℤ) < ((N : ℕ) : ℤ) by rw [s0]; omega)
    rw [dif_pos hr]
    congr 1
    funext a
    refine Fin.ext ?_
    match a with
    | ⟨0, _⟩ =>
      show ((vecDims N E wf).start j idx 0 + ((vecDims N E wf).window j 0 : ℤ)).toNat = n.val
      rw [s0]; omega

/-- THE VECTOR SCATTER-ADD READ AT n: the operand's entry plus the sum of the updates whose index is n. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  by_cases hc : (idx (ix2 e (0 : Fin 1))).toInt = (n.val : ℤ)
  · rw [if_pos hc, if_pos ((resultIdx_eq_some_iff wf (ix1 e) idx n).mpr hc)]
  · rw [if_neg hc, if_neg fun h => hc ((resultIdx_eq_some_iff wf (ix1 e) idx n).mp h)]

/-- The same of the host operation at the ideal instance, as a printed program spells it. -/
theorem scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecDims N E wf) x idx upd (ix1 n)
      = x (ix1 n) + ∑ e : Fin E, if (idx (ix2 e (0 : Fin 1))).toInt = (n.val : ℤ) then upd (ix1 e) else 0 :=
  hostScatterAdd_vec_apply wf x idx upd n

/-- A COLUMN OF A ROW SCATTER IS A VECTOR SCATTER: a row scatter-add of E×F' updates by the same indices, read in a
    column where its operand agrees with the vector operand and its updates carry the vector's updates, is the vector
    scatter-add. -/
theorem hostScatterAdd_vec_eq_col {F' : Nat}
    (wf' : ScatterDims.WF (⟨2, ![N, F']⟩ : Shape) ⟨2, ![E, 1]⟩ ⟨2, ![E, F']⟩ [1] [0] [0] 1)
    (x : (⟨1, ![N]⟩ : Shape).Idx → EReal) (x' : (⟨2, ![N, F']⟩ : Shape).Idx → EReal) (idx : IVec ⟨2, ![E, 1]⟩ w)
    (upd : (⟨1, ![E]⟩ : Shape).Idx → EReal) (upd' : (⟨2, ![E, F']⟩ : Shape).Idx → EReal) (f' : Fin F')
    (hx : ∀ n : Fin N, x (ix1 n) = x' (ix2 n f')) (hu : ∀ e : Fin E, upd (ix1 e) = upd' (ix2 e f')) (n : Fin N) :
    Ideal.hostScatterAdd (vecDims N E wf) x idx upd (ix1 n)
      = Ideal.hostScatterAdd (ScatterRows.rowDims N E F' wf') x' idx upd' (ix2 n f') := by
  rw [hostScatterAdd_vec_apply wf, ScatterRows.hostScatterAdd_rows_apply wf', hx n]
  congr 1
  exact Finset.sum_congr rfl fun e _ => by rw [hu e]

end ScatterVec

end
-- ==== Proof.Bridge.lean ====
/-
  The kernel's result array is the reference's result.

  Both programs gather the same messages (the same operations of the same node features and edge list) and scatter-add
  them by the same destination nodes. The reference scatter-adds the 64 feature columns, and separately a vector of ones;
  the kernel lays the ones beside the messages as a 65th column and scatter-adds once. A row scatter-add does not mix
  columns, so columns 0–63 of the kernel's array are the reference's sums, and column 64 is the reference's counts. The
  weights reach both as the same transposes, and a vector read as a 1×64 row is the same row whether it was reshaped or
  broadcast along a new leading axis. The dense tail reads all of these entry by entry, so the two results agree at every
  index. No step needs the inputs to be finite: sums on the extended reals may be regrouped freely.
-/
import proofs.«164882_j67233418051656_2_alg».proof.Proof.KernelArray
import proofs.«164882_j67233418051656_2_alg».proof.Proof.KernelSums
import proofs.«164882_j67233418051656_2_alg».proof.Proof.KernelRows
import proofs.«164882_j67233418051656_2_alg».proof.Proof.RefTail
import proofs.«164882_j67233418051656_2_alg».proof.Proof.LibSparseRows
import proofs.«164882_j67233418051656_2_alg».proof.Proof.LibCountScatter
import proofs.«164882_j67233418051656_2_alg».proof.Proof.SageNorm
import Idealize.ShloMosaic.Lib.ValueIdx
import Idealize.ShloMosaic.Lib.Pipeline.Value

noncomputable section

namespace Cert.Bridge

open Idealize.ShloMosaic Idealize.ShloMosaic.TcCoe Idealize.SL.Sem Idealize.ShloMosaic.ValueIdx

section Entries

variable (x : FVec Ideal Cert.KernelIdeal.S50000x64 .f32) (ei : IVec Cert.KernelIdeal.S2x800000 32)

/-- The two programs gather the same messages: the same operations of the same arguments. -/
theorem msgs_eq : Cert.KernelIdeal.HostSide.msgs x ei = Cert.ReferenceIdeal.Read.val_main_v10 (F := Ideal) x ei := rfl

/-- They scatter by the same destination column (the reference builds it twice). -/
theorem dst_eq : Cert.KernelIdeal.HostSide.dstCol ei = Cert.ReferenceIdeal.Read.val_main_v12 (F := Ideal) ei := rfl
theorem dst_eq' : Cert.KernelIdeal.HostSide.dstCol ei = Cert.ReferenceIdeal.Read.val_main_v16 (F := Ideal) ei := rfl

/-- The kernel's scatter dimensions are the row-scatter ones at width 65; the reference's, at width 64, and the vector ones. -/
theorem dimsK : Cert.KernelIdeal.scatter_S50000x65_S800000x1_S800000x65_1_0_0_1 = ScatterRows.rowDims 50000 800000 65 Cert.KernelIdeal.scatter_S50000x65_S800000x1_S800000x65_1_0_0_1.wf := rfl
theorem dimsR : Cert.ReferenceIdeal.scatter_S50000x64_S800000x1_S800000x64_1_0_0_1 = ScatterRows.rowDims 50000 800000 64 Cert.ReferenceIdeal.scatter_S50000x64_S800000x1_S800000x64_1_0_0_1.wf := rfl
theorem dimsV : Cert.ReferenceIdeal.scatter_S50000_S800000x1_S800000_n_0_0_1 = ScatterVec.vecDims 50000 800000 Cert.ReferenceIdeal.scatter_S50000_S800000x1_S800000_n_0_0_1.wf := rfl

/-- Entry (n, f) of the kernel's 65-column scatter: the zero word's value plus the sum over the edges into n. -/
theorem aug_apply (n : Fin 50000) (f : Fin 65) :
    Cert.KernelIdeal.HostSide.aug x ei (ix2 n f)
      = (broadcastInDim Cert.KernelIdeal.S50000x65 ![] Cert.KernelIdeal.Gen.bcast_S_S50000x65 (constant (F := Ideal) Cert.KernelIdeal.S_ .f32 0x00000000#32)) (ix2 n f) + ∑ e : Fin 800000, if (Cert.KernelIdeal.HostSide.dstCol ei (ix2 e (0 : Fin 1))).toInt = (n.val : ℤ)
          then (concatenate Cert.KernelIdeal.S800000x65 1 [⟨Cert.KernelIdeal.S800000x64, Cert.KernelIdeal.HostSide.msgs x ei⟩, ⟨Cert.KernelIdeal.S800000x1, Cert.KernelIdeal.HostSide.onesCol⟩] Cert.KernelIdeal.Gen.concatenates_S800000x64_S800000x1_S800000x65_d1) (ix2 e f) else 0 := by
  unfold Cert.KernelIdeal.HostSide.aug
  rw [dimsK]
  exact ScatterRows.scatterAdd_rows_apply Cert.KernelIdeal.scatter_S50000x65_S800000x1_S800000x65_1_0_0_1.wf (broadcastInDim Cert.KernelIdeal.S50000x65 ![] Cert.KernelIdeal.Gen.bcast_S_S50000x65 (constant (F := Ideal) Cert.KernelIdeal.S_ .f32 0x00000000#32)) (Cert.KernelIdeal.HostSide.dstCol ei) (concatenate Cert.KernelIdeal.S800000x65 1 [⟨Cert.KernelIdeal.S800000x64, Cert.KernelIdeal.HostSide.msgs x ei⟩, ⟨Cert.KernelIdeal.S800000x1, Cert.KernelIdeal.HostSide.onesCol⟩] Cert.KernelIdeal.Gen.concatenates_S800000x64_S800000x1_S800000x65_d1) n f

/-- COLUMNS 0–63 of the kernel's scatter are the reference's per-node sums. -/
theorem sums_entry (n : Fin 50000) (k : Fin 64) :
    extractStridedSlice Cert.KernelIdeal.S50000x64 ![0, 0] (Cert.KernelIdeal.HostSide.aug x ei) Cert.KernelIdeal.Gen.slices_S50000x65_S50000x64_0_0 (ix2 n k)
      = Cert.ReferenceIdeal.Read.val_main_v13 (F := Ideal) x ei (ix2 n k) := by
  have hk : k.val < 65 := by omega
  refine (extractStridedSlice_apply ![0, 0] (Cert.KernelIdeal.HostSide.aug x ei) Cert.KernelIdeal.Gen.slices_S50000x65_S50000x64_0_0 (ix2 n k)
    (ix2 n (⟨k.val, hk⟩ : Fin 65)) (fun a => match a with
      | ⟨0, _⟩ => by show n.val = 0 + n.val; omega
      | ⟨1, _⟩ => by show k.val = 0 + k.val; omega)).trans ?_
  have hu : ∀ e : Fin 800000, (concatenate Cert.KernelIdeal.S800000x65 1 [⟨Cert.KernelIdeal.S800000x64, Cert.KernelIdeal.HostSide.msgs x ei⟩, ⟨Cert.KernelIdeal.S800000x1, Cert.KernelIdeal.HostSide.onesCol⟩] Cert.KernelIdeal.Gen.concatenates_S800000x64_S800000x1_S800000x65_d1) (ix2 e (⟨k.val, hk⟩ : Fin 65)) = Cert.ReferenceIdeal.Read.val_main_v10 (F := Ideal) x ei (ix2 e k) := fun e =>
    (concatenate_pair_apply_left (1 : Fin 2) (Cert.KernelIdeal.HostSide.msgs x ei) Cert.KernelIdeal.HostSide.onesCol Cert.KernelIdeal.Gen.concatenates_S800000x64_S800000x1_S800000x65_d1
      (ix2 e (⟨k.val, hk⟩ : Fin 65)) rfl (ix2 e k) (fun b => match b with | ⟨0, _⟩ => rfl | ⟨1, _⟩ => rfl)).trans
      (congrFun (msgs_eq x ei) (ix2 e k))
  refine (aug_apply x ei n ⟨k.val, hk⟩).trans ?_
  unfold Cert.ReferenceIdeal.Read.val_main_v13
  rw [dimsR]
  refine Eq.trans ?_ (ScatterRows.scatterAdd_rows_apply Cert.ReferenceIdeal.scatter_S50000x64_S800000x1_S800000x64_1_0_0_1.wf (Cert.ReferenceIdeal.Read.val_main_v11 (F := Ideal)) (Cert.ReferenceIdeal.Read.val_main_v12 (F := Ideal) ei)
    (Cert.ReferenceIdeal.Read.val_main_v10 (F := Ideal) x ei) n k).symm
  rw [← dst_eq ei]
  refine congrArg₂ (fun a b : EReal => a + b) rfl (Finset.sum_congr rfl fun e _ => ?_)
  rw [hu e]

/-- COLUMN 64 of the kernel's scatter is the reference's per-node counts. -/
theorem counts_entry (n : Fin 50000) :
    extractStridedSlice Cert.KernelIdeal.S50000x1 ![0, 64] (Cert.KernelIdeal.HostSide.aug x ei) Cert.KernelIdeal.Gen.slices_S50000x65_S50000x1_0_64 (ix2 n (0 : Fin 1))
      = Cert.ReferenceIdeal.Read.val_main_v17 (F := Ideal) ei (ix1 n) := by
  refine (extractStridedSlice_apply ![0, 64] (Cert.KernelIdeal.HostSide.aug x ei) Cert.KernelIdeal.Gen.slices_S50000x65_S50000x1_0_64 (ix2 n (0 : Fin 1))
    (ix2 n (⟨64, by omega⟩ : Fin 65)) (fun a => match a with
      | ⟨0, _⟩ => by show n.val = 0 + n.val; omega
      | ⟨1, _⟩ => by show 64 = 64 + 0; rfl)).trans ?_
  have hu : ∀ e : Fin 800000, (concatenate Cert.KernelIdeal.S800000x65 1 [⟨Cert.KernelIdeal.S800000x64, Cert.KernelIdeal.HostSide.msgs x ei⟩, ⟨Cert.KernelIdeal.S800000x1, Cert.KernelIdeal.HostSide.onesCol⟩] Cert.KernelIdeal.Gen.concatenates_S800000x64_S800000x1_S800000x65_d1) (ix2 e (⟨64, by omega⟩ : Fin 65)) = Cert.ReferenceIdeal.Read.val_main_v14 (F := Ideal) (ix1 e) := fun e =>
    concatenate_pair_apply_right (1 : Fin 2) (Cert.KernelIdeal.HostSide.msgs x ei) Cert.KernelIdeal.HostSide.onesCol Cert.KernelIdeal.Gen.concatenates_S800000x64_S800000x1_S800000x65_d1
      (ix2 e (⟨64, by omega⟩ : Fin 65)) rfl rfl (ix2 e (0 : Fin 1))
      (fun b hb => match b with | ⟨0, _⟩ => rfl | ⟨1, _⟩ => absurd rfl hb) rfl
  refine (aug_apply x ei n ⟨64, by omega⟩).trans ?_
  unfold Cert.ReferenceIdeal.Read.val_main_v17
  rw [dimsV]
  refine Eq.trans ?_ (ScatterVec.scatterAdd_vec_apply Cert.ReferenceIdeal.scatter_S50000_S800000x1_S800000_n_0_0_1.wf (Cert.ReferenceIdeal.Read.val_main_v15 (F := Ideal)) (Cert.ReferenceIdeal.Read.val_main_v16 (F := Ideal) ei)
    (Cert.ReferenceIdeal.Read.val_main_v14 (F := Ideal)) n).symm
  rw [← dst_eq' ei]
  refine congrArg₂ (fun a b : EReal => a + b) rfl (Finset.sum_congr rfl fun e _ => ?_)
  rw [hu e]

/-- A vector of 64 entries reshaped to a 1×64 row reads, at (0, q), the vector at q. -/
theorem row_reshape_apply (v : FVec Ideal Cert.KernelIdeal.S64 .f32) (q : Fin 64) :
    shapeCast Cert.KernelIdeal.S1x64 v Cert.KernelIdeal.Gen.shapeCasts_S64_S1x64 (ix2 (0 : Fin 1) q) = v (ix1 q) :=
  shapeCast_apply v Cert.KernelIdeal.Gen.shapeCasts_S64_S1x64 (ix2 (0 : Fin 1) q) (ix1 q) (by
    rw [Shape.rowMajor_val_two, Shape.rowMajor_val_one]
    show q.val = 0 * 64 + q.val
    omega)

/-- The same vector broadcast along a new leading axis reads the same. -/
theorem row_broadcast_apply (v : FVec Ideal Cert.KernelIdeal.S64 .f32) (q : Fin 64) :
    broadcastInDim Cert.ReferenceIdeal.S1x64 ![1] Cert.ReferenceIdeal.Gen.bcast_S64_S1x64_1 v (ix2 (0 : Fin 1) q) = v (ix1 q) :=
  broadcastInDim_apply _ Cert.ReferenceIdeal.Gen.bcast_S64_S1x64_1 v (ix2 (0 : Fin 1) q) (ix1 q) (fun a => match a with
    | ⟨0, _⟩ => by show q.val = if (64 : Nat) = 1 then 0 else q.val; rw [if_neg (by decide)])

end Entries

/-- THE KERNEL'S RESULT ARRAY IS THE REFERENCE'S RESULT, at every index. -/
theorem result_eq (m : (ℓ : Loc Cert.KernelIdeal.nD Cert.KernelIdeal.τ Cert.KernelIdeal.sig) → Buf (Elt Ideal) ℓ) (c : Dev Cert.KernelIdeal.nD) :
    Cert.KernelIdeal.Whole.G m c = Cert.ReferenceIdeal.Read.val_main_v55 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  funext i
  obtain ⟨n, q, rfl⟩ : ∃ (n : Fin 50000) (q : Fin 64), i = ix2 n q := ⟨i 0, i 1, eq_ix2 i⟩
  rw [Cert.ReferenceIdeal.RefTail.result_apply]
  show SageNorm.out _ _ _ _ _ _ _ _ n q = _
  refine SageNorm.out_congr _ _ _ _ _ _ _ _ _ _ _ _ _ _ _ _ n n ?_ ?_ ?_ ?_ ?_ ?_ ?_ ?_ q
  · intro k
    rw [Cert.KernelIdeal.HostSide.V_sums]
    exact sums_entry _ _ n k
  · rw [Cert.KernelIdeal.HostSide.V_counts]
    exact counts_entry _ _ n
  · intro k
    rw [Cert.KernelIdeal.Gen.V_main_arg0]
  · intro k q'
    rw [Cert.KernelIdeal.HostSide.V_wl]
    rfl
  · intro k q'
    rw [Cert.KernelIdeal.HostSide.V_wr]
    rfl
  · intro q'
    rw [Cert.KernelIdeal.HostSide.V_bias]
    exact (row_reshape_apply _ q').trans (row_broadcast_apply _ q').symm
  · intro q'
    rw [Cert.KernelIdeal.HostSide.V_scale]
    exact (row_reshape_apply _ q').trans (row_broadcast_apply _ q').symm
  · intro q'
    rw [Cert.KernelIdeal.HostSide.V_shift]
    exact (row_reshape_apply _ q').trans (row_broadcast_apply _ q').symm

end Cert.Bridge

end
-- ==== Proof.lean ====
/-
  A mean-aggregating graph layer with layer normalisation, as a tiled kernel, against its array-level reference:
  the two are equal on the extended reals.

  The layer. For a graph of 50000 nodes with 64 features each and 800000 edges, every node averages the features of its
  in-neighbours (the sum over the edges into it, divided by their number, at least 1), applies one 64×64 weight matrix to
  that mean and another to its own features, adds a bias, normalises the resulting row of 64 to zero mean and unit variance
  (the variance shifted by ε before the reciprocal square root), scales and shifts it entrywise, and rectifies.

  The kernel gathers the messages and scatter-adds them on the host, with a column of ones laid beside the messages so that
  one scatter-add yields the per-node sums (columns 0–63) and the per-node counts (column 64); the dense rest runs in one
  tiled region over ten tiles of 5000 rows, its two products on the matrix unit with operands narrowed to bf16 — the
  identity on the extended reals. The reference scatter-adds the messages and, separately, a vector of ones, then computes
  the same dense rest on whole arrays.

  The proof. (1) The dense rest is one row-local function, `SageNorm.out` (SageNorm.lean). (2) A tile the kernel stores is
  that function of the tiles it loads (KernelBlock.lean), so, rows being independent and the ten tiles covering the array,
  the kernel's result array is that function of the arrays the region finds (KernelArray.lean). (3) The reference's result
  is the same function of its own scatter results (RefTail.lean). (4) A row scatter-add does not mix columns
  (LibSparseRows.lean) and a column of it is a vector scatter-add (LibCountScatter.lean), so the kernel's sums and counts
  are the reference's; the weights and the three rows agree entry by entry (Bridge.lean). Sums on the extended reals are
  regrouped only by commutativity and associativity, so the inputs' finiteness is never used. The three frames are the
  generated frame certificates and the reference's generated run; the idealisation rewrote nothing, so it is preserved
  trivially.
-/
import proofs.«164882_j67233418051656_2_alg».proof.Defs
import proofs.«164882_j67233418051656_2_alg».proof.Proof.Gen.Kernel
import proofs.«164882_j67233418051656_2_alg».proof.Proof.Gen.Kernel.Skeleton
import proofs.«164882_j67233418051656_2_alg».proof.Proof.Gen.Kernel.Launch
import proofs.«164882_j67233418051656_2_alg».proof.Proof.Gen.Kernel.Points
import proofs.«164882_j67233418051656_2_alg».proof.Proof.Gen.Kernel.Frame
import proofs.«164882_j67233418051656_2_alg».proof.Proof.Gen.KernelIdeal
import proofs.«164882_j67233418051656_2_alg».proof.Proof.Gen.KernelIdeal.Skeleton
import proofs.«164882_j67233418051656_2_alg».proof.Proof.Gen.KernelIdeal.Launch
import proofs.«164882_j67233418051656_2_alg».proof.Proof.Gen.KernelIdeal.Points
import proofs.«164882_j67233418051656_2_alg».proof.Proof.Gen.KernelIdeal.Frame
import proofs.«164882_j67233418051656_2_alg».proof.Proof.Gen.ReferenceIdeal
import proofs.«164882_j67233418051656_2_alg».proof.Proof.Gen.Pre_finite_inputs
import proofs.«164882_j67233418051656_2_alg».proof.Proof.Gen.KernelIdeal.Value
import proofs.«164882_j67233418051656_2_alg».proof.Proof.Gen.ReferenceIdeal.Run
import proofs.«164882_j67233418051656_2_alg».proof.Proof.Gen.ReferenceIdeal.Read
import proofs.«164882_j67233418051656_2_alg».proof.Proof.KernelArray
import proofs.«164882_j67233418051656_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- On the extended reals the kernel's result array is the dense tail of the arrays its region finds, the reference's is
    the reference's composed term of arguments that agree, and the two are one function (`Cert.Bridge.result_eq`). -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2.1,
    (hagree c).2.2.2.2.1, (hagree c).2.2.2.2.2.1, (hagree c).2.2.2.2.2.2]
  exact (Cert.Bridge.result_eq m c).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
